-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512x2 : Shape := ⟨3, ![16384, 512, 2]⟩
abbrev S16384x512 : Shape := ⟨2, ![16384, 512]⟩
abbrev S512 : Shape := ⟨1, ![512]⟩
abbrev S_ : Shape := ⟨0, ![]⟩

class Facts : Prop where
  bcast_S_S16384x512x2 : S_.BroadcastsInDim S16384x512x2 (![] : Fin 0 → Fin S16384x512x2.rank)
  reducesTo_S16384x512x2_S_d0_1_2 : S16384x512x2.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S16384x512x2 .f32) (main_arg1 : IVec S16384x512 32) (main_arg2 : FVec F S512 .f32) : IVec S_ 1 :=
  let main_v0 : FVec F S16384x512x2 .f32 := Host.absf main_arg0
  let main_cst : FVec F S_ .f32 := constant S_ .f32 0x7F800000#32
  let main_v1 : FVec F S16384x512x2 .f32 := broadcastInDim S16384x512x2 ![] bcast_S_S16384x512x2 main_cst
  let main_v2 : IVec S16384x512x2 1 := cmpf .olt main_v0 main_v1
  let main_c : IVec S_ 1 := constantI S_ 1 1#1
  let main_v3 : IVec S_ 1 := (fun x v => Host.reduce IntOp.andi x v reducesTo_S16384x512x2_S_d0_1_2 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S16384x512x2 : Shape := ⟨3, ![16384, 512, 2]⟩
abbrev S16384x512 : Shape := ⟨2, ![16384, 512]⟩
abbrev S512 : Shape := ⟨1, ![512]⟩
abbrev S16384x512x1 : Shape := ⟨3, ![16384, 512, 1]⟩
abbrev S1x1 : Shape := ⟨2, ![1, 1]⟩
abbrev S512x512 : Shape := ⟨2, ![512, 512]⟩
abbrev S1x512 : Shape := ⟨2, ![1, 512]⟩
abbrev S512x1 : Shape := ⟨2, ![512, 1]⟩
abbrev S1 : Shape := ⟨1, ![1]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S16384x512x2, .f32⟩
  | .hbm, ⟨1, _⟩ => ⟨S16384x512, .i32⟩
  | .hbm, ⟨2, _⟩ => ⟨S512, .f32⟩
  | .hbm, ⟨3, _⟩ => ⟨S16384x512x1, .f32⟩
  | .hbm, ⟨4, _⟩ => ⟨S16384x512, .f32⟩
  | .hbm, ⟨5, _⟩ => ⟨S16384x512x1, .f32⟩
  | .hbm, ⟨6, _⟩ => ⟨S16384x512, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .i32⟩
  | .local _ .vmem, ⟨5, _⟩ => ⟨S512x512, .i32⟩
  | .local _ .vmem, ⟨6, _⟩ => ⟨S512, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S16384x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v120 : BitVec 1 := Scalar.cmpi .eq arg0 c31_i32
  let v121 : BitVec 32 := Scalar.extui v120
  let c0_i32_33 : BitVec 32 := 0#32
  let v122 : BitVec 1 := Scalar.cmpi .ne v121 c0_i32_33
  v122

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S16384x512x2_S16384x512x1_0_0_0 : S16384x512x2.Slices ![0, 0, 0] S16384x512x1
  shapeCasts_S16384x512x1_S16384x512 : S16384x512x1.ShapeCasts S16384x512
  slices_S16384x512x2_S16384x512x1_0_0_1 : S16384x512x2.Slices ![0, 0, 1] S16384x512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  natLt_1_32 : 1 < 32
  shapeCasts_S512_S1x512 : S512.ShapeCasts S1x512
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .i32 = 32 ∨ (Rect.block (s := S16384x512) S512x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x512x2 : Shape := ⟨3, ![16384, 512, 2]⟩
abbrev S16384x512 : Shape := ⟨2, ![16384, 512]⟩
abbrev S512 : Shape := ⟨1, ![512]⟩
abbrev S_ : Shape := ⟨0, ![]⟩
abbrev S16384x512x1 : Shape := ⟨3, ![16384, 512, 1]⟩
abbrev S1x512x1 : Shape := ⟨3, ![1, 512, 1]⟩
abbrev S16384 : Shape := ⟨1, ![16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x512x2, .f32⟩
  | .hbm, ⟨1, _⟩ => ⟨S16384x512, .i32⟩
  | .hbm, ⟨2, _⟩ => ⟨S512, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384x512, .i32⟩
  | .hbm, ⟨7, _⟩ => ⟨S16384x512, .i32⟩
  | .hbm, ⟨8, _⟩ => ⟨S_, .i32⟩
  | .hbm, ⟨9, _⟩ => ⟨S16384x512, .i32⟩
  | .hbm, ⟨10, _⟩ => ⟨S16384x512, .i32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512x1, .f32⟩
  | .hbm, ⟨16, _⟩ => ⟨S16384x512x1, .f32⟩
  | .hbm, ⟨17, _⟩ => ⟨S16384x512x2, .f32⟩
  | .hbm, ⟨18, _⟩ => ⟨S1x512x1, .f32⟩
  | .hbm, ⟨19, _⟩ => ⟨S16384x512x2, .f32⟩
  | .hbm, ⟨20, _⟩ => ⟨S16384x512x2, .f32⟩
  | .hbm, ⟨21, _⟩ => ⟨S16384x512x2, .f32⟩
  | .hbm, ⟨22, _⟩ => ⟨S_, .f32⟩
  | .hbm, ⟨23, _⟩ => ⟨S16384x512x2, .f32⟩
  | .hbm, ⟨24, _⟩ => ⟨S16384x512x2, .f32⟩
  | .hbm, ⟨25, _⟩ => ⟨S16384x512x2, .f32⟩
  | .hbm, ⟨26, _⟩ => ⟨S16384x512x2, .f32⟩
  | .hbm, ⟨27, _⟩ => ⟨S16384x512x2, .i1⟩
  | .hbm, ⟨28, _⟩ => ⟨S16384x512x2, .f32⟩
  | .hbm, ⟨29, _⟩ => ⟨S16384x512x2, .f32⟩
  | .hbm, ⟨30, _⟩ => ⟨S16384x512x2, .f32⟩
  | .hbm, ⟨31, _⟩ => ⟨S16384x512x2, .f32⟩
  | .hbm, ⟨32, _⟩ => ⟨S16384x512x2, .f32⟩
  | .hbm, ⟨33, _⟩ => ⟨S16384x512x2, .f32⟩
  | .hbm, ⟨34, _⟩ => ⟨S16384x512x2, .f32⟩
  | .hbm, ⟨35, _⟩ => ⟨S16384x512x2, .f32⟩
  | .hbm, ⟨36, _⟩ => ⟨S16384x512x2, .f32⟩
  | .hbm, ⟨37, _⟩ => ⟨S_, .f32⟩
  | .hbm, ⟨38, _⟩ => ⟨S16384x512x2, .f32⟩
  | .hbm, ⟨39, _⟩ => ⟨S16384x512x2, .f32⟩
  | .hbm, ⟨40, _⟩ => ⟨S_, .f32⟩
  | .hbm, ⟨41, _⟩ => ⟨S16384x512x2, .f32⟩
  | .hbm, ⟨42, _⟩ => ⟨S16384x512x2, .f32⟩
  | .hbm, ⟨43, _⟩ => ⟨S16384x512x2, .f32⟩
  | .hbm, ⟨44, _⟩ => ⟨S16384x512x2, .f32⟩
  | .hbm, ⟨45, _⟩ => ⟨S16384x512x2, .i1⟩
  | .hbm, ⟨46, _⟩ => ⟨S16384x512x2, .f32⟩
  | .hbm, ⟨47, _⟩ => ⟨S16384x512x2, .f32⟩
  | .hbm, ⟨48, _⟩ => ⟨S16384x512x2, .f32⟩
  | .hbm, ⟨49, _⟩ => ⟨S16384x512x2, .f32⟩
  | .hbm, ⟨50, _⟩ => ⟨S16384x512x2, .f32⟩
  | .hbm, ⟨51, _⟩ => ⟨S16384x512x2, .f32⟩
  | .hbm, ⟨52, _⟩ => ⟨S16384x512x2, .f32⟩
  | .hbm, ⟨53, _⟩ => ⟨S16384x512x2, .f32⟩
  | .hbm, ⟨54, _⟩ => ⟨S16384x512x2, .f32⟩
  | .hbm, ⟨55, _⟩ => ⟨S16384x512x2, .f32⟩
  | .hbm, ⟨56, _⟩ => ⟨S_, .f32⟩
  | .hbm, ⟨57, _⟩ => ⟨S16384x512, .f32⟩
  | .hbm, ⟨58, _⟩ => ⟨S_, .f32⟩
  | .hbm, ⟨59, _⟩ => ⟨S16384x512, .f32⟩
  | .hbm, ⟨60, _⟩ => ⟨S16384x512, .f32⟩
  | .hbm, ⟨61, _⟩ => ⟨S_, .i32⟩
  | .hbm, ⟨62, _⟩ => ⟨S16384x512, .i32⟩
  | .hbm, ⟨63, _⟩ => ⟨S16384x512, .i1⟩
  | .hbm, ⟨64, _⟩ => ⟨S16384x512, .f32⟩
  | .hbm, ⟨65, _⟩ => ⟨S16384x512, .f32⟩
  | .hbm, ⟨66, _⟩ => ⟨S_, .f32⟩
  | .hbm, ⟨67, _⟩ => ⟨S16384, .f32⟩
  | .hbm, ⟨68, _⟩ => ⟨S_, .f32⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .i1⟩
  | .hbm, ⟨73, _⟩ => ⟨S16384, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16384, .f32⟩
  | .hbm, ⟨81, _⟩ => ⟨S16384, .f32⟩
  | .hbm, ⟨82, _⟩ => ⟨S_, .f32⟩
  | .hbm, ⟨83, _⟩ => ⟨S_, .f32⟩
  | .hbm, ⟨84, _⟩ => ⟨S_, .f32⟩
  | _, _ => ⟨S16384x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_2 : Ref sig .tc := ⟨.hbm, 56, rfl⟩
abbrev main_v18 : Ref sig .tc := ⟨.hbm, 57, rfl⟩
abbrev main_cst_3 : Ref sig .tc := ⟨.hbm, 58, rfl⟩
abbrev main_v19 : Ref sig .tc := ⟨.hbm, 59, rfl⟩
abbrev main_v20 : Ref sig .tc := ⟨.hbm, 60, rfl⟩
abbrev main_c_4 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_5 : Ref sig .tc := ⟨.hbm, 66, rfl⟩
abbrev main_v25 : Ref sig .tc := ⟨.hbm, 67, rfl⟩
abbrev main_cst_6 : Ref sig .tc := ⟨.hbm, 68, rfl⟩
abbrev main_v26 : Ref sig .tc := ⟨.hbm, 69, rfl⟩
abbrev main_cst_7 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_8 : Ref sig .tc := ⟨.hbm, 74, rfl⟩
abbrev main_v30 : Ref sig .tc := ⟨.hbm, 75, rfl⟩
abbrev main_cst_9 : Ref sig .tc := ⟨.hbm, 76, rfl⟩
abbrev main_v31 : Ref sig .tc := ⟨.hbm, 77, rfl⟩
abbrev main_cst_10 : Ref sig .tc := ⟨.hbm, 78, rfl⟩
abbrev main_call3_v0 : Ref sig .tc := ⟨.hbm, 79, rfl⟩
abbrev main_call3_v1 : Ref sig .tc := ⟨.hbm, 80, rfl⟩
abbrev main_v32 : Ref sig .tc := ⟨.hbm, 81, rfl⟩
abbrev main_cst_11 : Ref sig .tc := ⟨.hbm, 82, rfl⟩
abbrev main_v33 : Ref sig .tc := ⟨.hbm, 83, rfl⟩
abbrev main_v34 : Ref sig .tc := ⟨.hbm, 84, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  bcast_S512_S1x512x1_1 : S512.BroadcastsInDim S1x512x1 (![1] : Fin 1 → Fin S1x512x1.rank)
  bcast_S1x512x1_S16384x512x2_0_1_2 : S1x512x1.BroadcastsInDim S16384x512x2 (![0, 1, 2] : Fin 3 → Fin S16384x512x2.rank)
  bcast_S_S16384x512x2 : S_.BroadcastsInDim S16384x512x2 (![] : Fin 0 → Fin S16384x512x2.rank)
  reducesTo_S16384x512x2_S16384x512_d2 : S16384x512x2.ReducesTo [2] S16384x512
  h_S_ : 0 < S_.numel
  reducesTo_S16384x512_S16384_d1 : S16384x512.ReducesTo [1] S16384
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.KernelPieces.lean ====
/-
  What one grid step leaves behind, as values.

  The kernel keeps two running totals in two one-entry scratch arrays: the sum of the counted samples' losses and the
  number of counted samples.  A grid step loads one block of 512 samples (the two prediction planes, the labels) and
  the weights, and adds the block's two totals to the scratch: `blockLoss` and `blockCount` are these two updates as
  pure functions of the loaded blocks and of what the scratch held before.  At the first step the scratch is first
  reset to zero, so the step leaves the block's totals added to zero; at every later step they are added to what the
  step before left; at the last step the two scratch entries are also copied to the two outputs.
-/
import proofs.«137358_j14121852470100_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- The sum of the two classes' weighted logistic losses, entry by entry over a block (before the factor one half and
    the mask), from the loaded blocks. -/
def summed (x0 : Vec F S512x512 .f32) (x1 : Vec F S512x512 .f32) (x2 : Vec F S512x512 .i32) (x3 : Vec F S512 .f32) : FVec F S512x512 .f32 :=
  k0_pay12 (k0_pay6 x0) (k0_pay7 x1) (k0_pay8 x2) (k0_pay10 x3) (k0_pay11 x0 x2 x3) (Scalar.ofBits .f32 0x00000000#32)

/-- The loss total after a step: what it held before plus the block's sum of counted samples' losses. -/
def blockLoss (x0 : Vec F S512x512 .f32) (x1 : Vec F S512x512 .f32) (x2 : Vec F S512x512 .i32) (x3 : Vec F S512 .f32) (acc : Vec F S1x1 .f32) : Vec F S1x1 .f32 :=
  k0_pay2 (k0_pay9 x2) (summed x0 x1 x2 x3) acc

/-- The count total after a step: what it held before plus the block's number of counted samples. -/
def blockCount (x2 : Vec F S512x512 .i32) (acc : Vec F S1x1 .f32) : Vec F S1x1 .f32 := k0_pay3 (k0_pay9 x2) acc

/-- The first step leaves, in the loss total, the block's sum added to the zero it has just stored. -/
theorem sout_A_0 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S512x512 .f32) (x1 : Vec F S512x512 .f32) (x2 : Vec F S512x512 .i32) (x3 : Vec F S512 .f32) :
    sout0_A_0 c i arg1 harg1 arg2 harg2 arg3 harg3 arg4 harg4 arg5 harg5 arg6 harg6 arg7 harg7 arg8 harg8 hc0 hc1 x0 x1 x2 x3 = blockLoss x0 x1 x2 x3 k0_pay4 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rfl

/-- The first step leaves, in the count total, the block's count added to the zero it has just stored. -/
theorem sout_A_1 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S512x512 .f32) (x1 : Vec F S512x512 .f32) (x2 : Vec F S512x512 .i32) (x3 : Vec F S512 .f32) :
    sout0_A_1 c i arg1 harg1 arg2 harg2 arg3 harg3 arg4 harg4 arg5 harg5 arg6 harg6 arg7 harg7 arg8 harg8 hc0 hc1 x0 x1 x2 x3 = blockCount x2 k0_pay5 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rfl

/-- A middle step leaves, in the loss total, the block's sum added to what the step before left. -/
theorem sout_B_0 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S512x512 .f32) (x1 : Vec F S512x512 .f32) (x2 : Vec F S512x512 .i32) (x3 : Vec F S512 .f32) (xs0 xs1 : Vec F S1x1 .f32) :
    sout0_B_0 c i arg1 harg1 arg2 harg2 arg3 harg3 arg4 harg4 arg5 harg5 arg6 harg6 arg7 harg7 arg8 harg8 hc0 hc1 x0 x1 x2 x3 xs0 xs1 = blockLoss x0 x1 x2 x3 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rfl

/-- A middle step leaves, in the count total, the block's count added to what the step before left. -/
theorem sout_B_1 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S512x512 .f32) (x1 : Vec F S512x512 .f32) (x2 : Vec F S512x512 .i32) (x3 : Vec F S512 .f32) (xs0 xs1 : Vec F S1x1 .f32) :
    sout0_B_1 c i arg1 harg1 arg2 harg2 arg3 harg3 arg4 harg4 arg5 harg5 arg6 harg6 arg7 harg7 arg8 harg8 hc0 hc1 x0 x1 x2 x3 xs0 xs1 = blockCount x2 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rfl

/-- The last step leaves the same in the loss total, -/
theorem sout_C_0 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S512x512 .f32) (x1 : Vec F S512x512 .f32) (x2 : Vec F S512x512 .i32) (x3 : Vec F S512 .f32) (xs0 xs1 : Vec F S1x1 .f32) :
    sout0_C_0 c i arg1 harg1 arg2 harg2 arg3 harg3 arg4 harg4 arg5 harg5 arg6 harg6 arg7 harg7 arg8 harg8 hc0 hc1 x0 x1 x2 x3 xs0 xs1 = blockLoss x0 x1 x2 x3 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rfl

/-- and in the count total; -/
theorem sout_C_1 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S512x512 .f32) (x1 : Vec F S512x512 .f32) (x2 : Vec F S512x512 .i32) (x3 : Vec F S512 .f32) (xs0 xs1 : Vec F S1x1 .f32) :
    sout0_C_1 c i arg1 harg1 arg2 harg2 arg3 harg3 arg4 harg4 arg5 harg5 arg6 harg6 arg7 harg7 arg8 harg8 hc0 hc1 x0 x1 x2 x3 xs0 xs1 = blockCount x2 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rfl

/-- and it copies the loss total it has just stored to the first output, -/
theorem out_C_4 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S512x512 .f32) (x1 : Vec F S512x512 .f32) (x2 : Vec F S512x512 .i32) (x3 : Vec F S512 .f32) (xs0 xs1 : Vec F S1x1 .f32) :
    out0_C_4 c i arg1 harg1 arg2 harg2 arg3 harg3 arg4 harg4 arg5 harg5 arg6 harg6 arg7 harg7 arg8 harg8 hc0 hc1 x0 x1 x2 x3 xs0 xs1 = blockLoss x0 x1 x2 x3 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rw [View.readCov_unit_zero (S := S1x1) _ hz]
  rfl

/-- and the count total to the second. -/
theorem out_C_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .i32) (harg3 : arg3.IsWhole) (arg4 : Memref sig .tc .vmem S512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S512x512 .f32) (x1 : Vec F S512x512 .f32) (x2 : Vec F S512x512 .i32) (x3 : Vec F S512 .f32) (xs0 xs1 : Vec F S1x1 .f32) :
    out0_C_5 c i arg1 harg1 arg2 harg2 arg3 harg3 arg4 harg4 arg5 harg5 arg6 harg6 arg7 harg7 arg8 harg8 hc0 hc1 x0 x1 x2 x3 xs0 xs1 = blockCount x2 xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread,
    View.ld_unit_zero (S := S512x512) hz, View.ld_unit_zero (S := S1x1) hz, View.ld_unit_zero (S := S512) hz1]
  rw [View.readCov_unit_zero (S := S1x1) _ hz]
  rfl

end Cert.KernelIdeal.Pieces

end
-- ==== Proof.KernelChain.lean ====
/-
  The two running totals, step by step over the grid.

  The grid has 32 steps; step `n` handles the block of samples 512·n … 512·n + 511.  After step `n` the loss total is
  the block's sum added to the total after step `n - 1` (to the zero stored at step 0), and the same for the count
  total (`lossAfter`, `countAfter`: the sums in grid order).  What the kernel's scratch holds after each step is
  exactly these (by induction on the step, never by listing the grid), the two outputs receive them at the last step,
  and the only write-back of each output, after step 31, covers the output's one entry: the two result arrays end as
  the totals after step 31.
-/
import proofs.«137358_j14121852470100_2_alg».proof.Proof.KernelPieces

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- The loss total after step `n`: the blocks' sums added up in grid order, from the zero stored at step 0. -/
def lossAfter (c : Dev nD) : (n : ℕ) → n < cfg0.N → Vec F S1x1 .f32
  | 0, h => blockLoss (iblk m c 0 ⟨0, h⟩) (iblk m c 1 ⟨0, h⟩) (iblk m c 2 ⟨0, h⟩) (iblk m c 3 ⟨0, h⟩) k0_pay4
  | n + 1, h => blockLoss (iblk m c 0 ⟨n + 1, h⟩) (iblk m c 1 ⟨n + 1, h⟩) (iblk m c 2 ⟨n + 1, h⟩) (iblk m c 3 ⟨n + 1, h⟩) (lossAfter c n (Nat.lt_of_succ_lt h))

/-- The count total after step `n`, likewise. -/
def countAfter (c : Dev nD) : (n : ℕ) → n < cfg0.N → Vec F S1x1 .f32
  | 0, h => blockCount (iblk m c 2 ⟨0, h⟩) k0_pay5
  | n + 1, h => blockCount (iblk m c 2 ⟨n + 1, h⟩) (countAfter c n (Nat.lt_of_succ_lt h))

/-- After every step the two scratch entries hold the two totals, and after the last step so do the two outputs'
    staging buffers. -/
theorem outs_eq (c : Dev nD) : ∀ (n : ℕ) (h : n < cfg0.N),
    (outsAt0 m c n h).2.2.1 = lossAfter m c n h ∧ (outsAt0 m c n h).2.2.2 = countAfter m c n h
      ∧ (n % 32 = 31 → (outsAt0 m c n h).1 = lossAfter m c n h ∧ (outsAt0 m c n h).2.1 = countAfter m c n h)
  | 0, h => by
    rw [outsAt0_A m c (⟨0, h⟩ : Fin cfg0.N) rfl (by dsimp only; decide)]
    dsimp only
    refine ⟨?_, ?_, fun h31 => absurd h31 (by decide)⟩
    · exact sout_A_0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) scM0_0 (Memref.isWhole_whole _) scM0_1 (Memref.isWhole_whole _) _ _ (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))
    · exact sout_A_1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) scM0_0 (Memref.isWhole_whole _) scM0_1 (Memref.isWhole_whole _) _ _ (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))
  | n + 1, h => by
    have hN : cfg0.N = 32 := N_0
    have h0 : ¬(⟨n + 1, h⟩ : Fin cfg0.N).val % 32 = 0 := by dsimp only; omega
    obtain ⟨ih0, ih1, -⟩ := outs_eq c n (Nat.lt_of_succ_lt h)
    by_cases h1 : (⟨n + 1, h⟩ : Fin cfg0.N).val % 32 = 31
    · rw [outsAt0_C m c (⟨n + 1, h⟩ : Fin cfg0.N) h0 h1]
      dsimp only
      have e0 : blockLoss (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.1 = lossAfter m c (n + 1) h := by
        rw [ih0]; rfl
      have e1 : blockCount (iblk m c 2 (⟨n + 1, h⟩ : Fin cfg0.N)) (outsAt0 m c n (Nat.lt_of_succ_lt h)).2.2.2 = countAfter m c (n + 1) h := by
        rw [ih1]; rfl
      refine ⟨?_, ?_, fun _ => ⟨?_, ?_⟩⟩
      · exact (sout_C_0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _ _).trans e0
      · exact (sout_C_1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _ _).trans e1
      · exact (out_C_4 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _ _).trans e0
      · exact (out_C_5 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _ _).trans e1
    · rw [outsAt0_B m c (⟨n + 1, h⟩ : Fin cfg0.N) h0 h1]
      dsimp only
      have e0 : blockLoss (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.2.1 = lossAfter m c (n + 1) h := by
        rw [ih0]; rfl
      have e1 : blockCount (iblk m c 2 (⟨n + 1, h⟩ : Fin cfg0.N)) (outsAt0 m c n (Nat.lt_of_succ_lt h)).2.2.2 = countAfter m c (n + 1) h := by
        rw [ih1]; rfl
      refine ⟨?_, ?_, fun h31 => absurd h31 h1⟩
      · exact (sout_B_0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _ _).trans e0
      · exact (sout_B_1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _ _).trans e1

theorem lt31 : 31 < cfg0.N := by rw [show cfg0.N = 32 from N_0]; decide

/-- The last grid step. -/
abbrev tLast : Fin cfg0.N := ⟨31, lt31⟩

/-- The loss total after the last step, as the contents of the first result array (its one block is the array). -/
abbrev lossTotal (c : Dev nD) : Buf (Elt F) ((c : Thread nD τ).loc main_v4_0) := lossAfter m c 31 lt31

/-- The count total after the last step, as the contents of the second result array. -/
abbrev countTotal (c : Dev nD) : Buf (Elt F) ((c : Thread nD τ).loc main_v4_1) := countAfter m c 31 lt31

/-- The one write-back of the first output, after the last step, writes the loss total. -/
theorem flushed4_eq (c : Dev nD) (t : Fin cfg0.N) (hf : (cfg0.win 4).flush t = true) :
    (dats m 0 c).flushed 4 t = ((cfg0.win 4).blk t).view.read (Elt F) (lossTotal m c) := by
  have hN : cfg0.N = 32 := N_0
  have h31 : t.val = 31 := by have := (flush0_4 t).mp hf; have := t.isLt; omega
  obtain rfl : t = tLast := Fin.ext h31
  show (cfg0.win 4).cut (grid0.coords tLast) ((dats m 0 c).after 4 tLast) = _
  rw [after0_4, ((outs_eq m c 31 lt31).2.2 rfl).1]
  have hz' : (fun a => win0_4.index tLast a * main_v4_0.ty.shape.size a) = fun _ => 0 := funext fun a => by fin_cases a <;> decide
  exact (Memref.read_access_unit_zero (Elt F) main_v4_0 hz' (fun a => by rw [congrFun hz' a]; simp) (lossTotal m c)).symm

/-- The one write-back of the second output writes the count total. -/
theorem flushed5_eq (c : Dev nD) (t : Fin cfg0.N) (hf : (cfg0.win 5).flush t = true) :
    (dats m 0 c).flushed 5 t = ((cfg0.win 5).blk t).view.read (Elt F) (countTotal m c) := by
  have hN : cfg0.N = 32 := N_0
  have h31 : t.val = 31 := by have := (flush0_5 t).mp hf; have := t.isLt; omega
  obtain rfl : t = tLast := Fin.ext h31
  show (cfg0.win 5).cut (grid0.coords tLast) ((dats m 0 c).after 5 tLast) = _
  rw [after0_5, ((outs_eq m c 31 lt31).2.2 rfl).2]
  have hz' : (fun a => win0_5.index tLast a * main_v4_1.ty.shape.size a) = fun _ => 0 := funext fun a => by fin_cases a <;> decide
  exact (Memref.read_access_unit_zero (Elt F) main_v4_1 hz' (fun a => by rw [congrFun hz' a]; simp) (countTotal m c)).symm

/-- The last step's block of the first output covers its one entry, -/
theorem cover4 (i : main_v4_0.ty.shape.Idx) : ∃ t, (cfg0.win 4).flush t = true ∧ i ∈ ((View.whole main_v4_0).slice (win0_4.rect t)).set :=
  ⟨tLast, (flush0_4 tLast).mpr rfl, by
    rw [View.set_slice_whole, Rect.mem_set_unit]
    intro a
    have h0 : (i 0 : Nat) < 1 := (i 0).isLt
    have h1 : (i 1 : Nat) < 1 := (i 1).isLt
    match a with
    | ⟨0, _⟩ => show win0_4.index tLast 0 * win0_4.size 0 ≤ (i 0 : Nat) ∧ (i 0 : Nat) < win0_4.index tLast 0 * win0_4.size 0 + win0_4.xsize (grid0.coords tLast) 0
                rw [show win0_4.index tLast 0 * win0_4.size 0 = 0 from by decide +kernel, show win0_4.xsize (grid0.coords tLast) 0 = 1 from by decide +kernel]; omega
    | ⟨1, _⟩ => show win0_4.index tLast 1 * win0_4.size 1 ≤ (i 1 : Nat) ∧ (i 1 : Nat) < win0_4.index tLast 1 * win0_4.size 1 + win0_4.xsize (grid0.coords tLast) 1
                rw [show win0_4.index tLast 1 * win0_4.size 1 = 0 from by decide +kernel, show win0_4.xsize (grid0.coords tLast) 1 = 1 from by decide +kernel]; omega⟩

/-- and likewise for the second output. -/
theorem cover5 (i : main_v4_1.ty.shape.Idx) : ∃ t, (cfg0.win 5).flush t = true ∧ i ∈ ((View.whole main_v4_1).slice (win0_5.rect t)).set :=
  ⟨tLast, (flush0_5 tLast).mpr rfl, by
    rw [View.set_slice_whole, Rect.mem_set_unit]
    intro a
    have h0 : (i 0 : Nat) < 1 := (i 0).isLt
    have h1 : (i 1 : Nat) < 1 := (i 1).isLt
    match a with
    | ⟨0, _⟩ => show win0_5.index tLast 0 * win0_5.size 0 ≤ (i 0 : Nat) ∧ (i 0 : Nat) < win0_5.index tLast 0 * win0_5.size 0 + win0_5.xsize (grid0.coords tLast) 0
                rw [show win0_5.index tLast 0 * win0_5.size 0 = 0 from by decide +kernel, show win0_5.xsize (grid0.coords tLast) 0 = 1 from by decide +kernel]; omega
    | ⟨1, _⟩ => show win0_5.index tLast 1 * win0_5.size 1 ≤ (i 1 : Nat) ∧ (i 1 : Nat) < win0_5.index tLast 1 * win0_5.size 1 + win0_5.xsize (grid0.coords tLast) 1
                rw [show win0_5.index tLast 1 * win0_5.size 1 = 0 from by decide +kernel, show win0_5.xsize (grid0.coords tLast) 1 = 1 from by decide +kernel]; omega⟩

/-- So the first result array ends holding the loss total after the last step, -/
theorem final4 (c : Dev nD) : (dats m 0 c).arrAt 4 cfg0.N = lossTotal m c :=
  (dats m 0 c).arrAt_eq_of_cover 4 (lossTotal m c) (flushed4_eq m c) cover4

/-- and the second the count total. -/
theorem final5 (c : Dev nD) : (dats m 0 c).arrAt 5 cfg0.N = countTotal m c :=
  (dats m 0 c).arrAt_eq_of_cover 5 (countTotal m c) (flushed5_eq m c) cover5

end Cert.KernelIdeal.Chain

end
-- ==== Proof.LossSpec.lean ====
/-
  The masked, weighted two-class logistic loss of a batch, as one function of the three argument arrays on the
  extended reals: predictions `P` [16384, 512, 2] (sample, annotator, class), labels `L` [16384, 512] (integers;
  -1 = the annotator did not label the sample) and annotator weights `W` [512].

  For one sample `b` and one annotator `a`, with `t` the label clamped to {0, 1} and `sp` the softplus
  `sp z = max z 0 + log (1 + exp (-|z|))`, the two classes' weighted logistic losses are
      w · (1 - t) · sp (-x₀) + t · sp x₀         and         w · t · sp (-x₁) + (1 - t) · sp x₁,
  the annotator's loss is half their sum, counted only where the label is not -1 (`annLoss`).  A sample's loss is the
  sum over its annotators (`rowLoss`); a sample counts when at least one annotator labelled it (`hasValid` of
  `rowCount`); the batch loss is the sum of the counted samples' losses over the number of counted samples, at least
  one (`loss`).
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-- The softplus `log (1 + eᶻ)` in its overflow-free form `max z 0 + log (1 + exp (-|z|))`, on the extended reals. -/
def softplus (z : EReal) : EReal := max z 0 + Ideal.log1p (Ideal.exp (-(max z (-z))))

/-- The label clamped to {0, 1}, as a number. -/
def target (l : BitVec 32) : EReal := (((IntOp.minsi 1#32 (IntOp.maxsi 0#32 l)).toInt : ℝ) : EReal)

/-- 1 where the annotator labelled the sample (the label is not -1), else 0. -/
def valid (l : BitVec 32) : EReal := (((IntOp.cmpi .ne l 4294967295#32).toNat : ℝ) : EReal)

/-- One annotator's loss of one sample: half the sum of the two classes' weighted logistic losses, counted only where
    the annotator labelled the sample. -/
def annLoss (x0 x1 : EReal) (l : BitVec 32) (w : EReal) : EReal :=
  ((1 / 2 : ℝ) : EReal)
    * (((w * (1 - target l)) * softplus (-x0) + target l * softplus x0)
      + ((w * target l) * softplus (-x1) + (1 - target l) * softplus x1))
    * valid l

/-- 1 when a sample's count of labelling annotators is positive, else 0. -/
def hasValid (n : EReal) : EReal := (((Ideal.cmp .ogt n 0).toNat : ℝ) : EReal)

variable (P : (⟨3, ![16384, 512, 2]⟩ : Shape).Idx → EReal) (L : (⟨2, ![16384, 512]⟩ : Shape).Idx → BitVec 32)
  (W : (⟨1, ![512]⟩ : Shape).Idx → EReal)

/-- A sample's loss: the sum over its annotators. -/
def rowLoss (b : Fin 16384) : EReal :=
  ∑ a : Fin 512, annLoss (P (ix3 b a 0)) (P (ix3 b a 1)) (L (ix2 b a)) (W (ix1 a))

/-- How many annotators labelled a sample. -/
def rowCount (b : Fin 16384) : EReal := ∑ a : Fin 512, valid (L (ix2 b a))

/-- The sum of the losses of the samples that count. -/
def sumLoss : EReal := ∑ b : Fin 16384, rowLoss P L W b * hasValid (rowCount L b)

/-- The number of samples that count. -/
def numValid : EReal := ∑ b : Fin 16384, hasValid (rowCount L b)

/-- The batch loss. -/
def loss : EReal := Ideal.div (sumLoss P L W) (max (numValid L) 1)

end Cert.LossSpec

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.KernelBlock.lean ====
/-
  One grid step's arithmetic, read at the extended reals.

  The body works on a block of 512 samples × 512 annotators.  Entry by entry it forms the masked per-annotator loss
  (the specification's `annLoss`, here in the body's own spelling `elemK`: subtractions from the zero word for the
  negations, the product with the word one half for the mean of the two classes, a select on `x ≠ x` that is never
  taken on the extended reals inside the softplus); it sums each sample's row, multiplies by 1 or 0 according to
  whether the row's count of labelled entries is positive, sums the column of these, and adds the result to the
  running total; the count total likewise.  The lemmas below read the two updates at their one entry as plain finite
  sums of the specification's functions.  No finiteness is used: only that a sum over a row or a column is the lane
  reduction, and identities of the extended reals that hold at the infinities too (`x - 0 = x`, `0 - x = -x`).
-/
import proofs.«137358_j14121852470100_2_alg».proof.Proof.KernelPieces
import proofs.«137358_j14121852470100_2_alg».proof.Proof.LossSpec
import proofs.«137358_j14121852470100_2_alg».proof.Proof.LibColumn
import Idealize.ShloMosaic.PureOps.Ideal.Laws
import Idealize.ShloMosaic.Lib.ValueIdx
import Idealize.ShloMosaic.Lib.ValueLayout

noncomputable section

open Idealize.ShloMosaic Idealize.ShloMosaic.ValueIdx

namespace Cert.KernelIdeal.Block

open Cert.KernelIdeal Cert.KernelIdeal.Gen Cert.KernelIdeal.Pieces Cert.LossSpec

/-- The f32 words the body uses, as extended reals. -/
def zeroW : EReal := Ideal.ofBits .f32 0x00000000#32
def oneW : EReal := Ideal.ofBits .f32 0x3F800000#32
def halfW : EReal := Ideal.ofBits .f32 0x3F000000#32

/-- The softplus as the body computes it on one entry. -/
def spK (z : EReal) : EReal :=
  Scalar.select (Ideal.cmp .one (z - zeroW) (z - zeroW)) (z + zeroW)
    (max z zeroW + Ideal.log1p (Ideal.exp (zeroW - max (z - zeroW) (-(z - zeroW)))))

def tK (l : BitVec 32) : EReal := (((IntOp.minsi 1#32 (IntOp.maxsi 0#32 l)).toInt : ℝ) : EReal)
def mK (l : BitVec 32) : EReal := ((((IntOp.cmpi .ne l 4294967295#32).setWidth 32).toInt : ℝ) : EReal)

/-- One entry of the masked per-annotator loss as the body computes it. -/
def elemK (x0 x1 : EReal) (l : BitVec 32) (w : EReal) : EReal :=
  halfW * (((w * (oneW - tK l)) * spK (zeroW - x0) + tK l * spK x0)
      + ((w * tK l) * spK (zeroW - x1) + (oneW - tK l) * spK x1)) * mK l

theorem elem_rfl (x0 x1 : Vec Ideal S512x512 .f32) (x2 : Vec Ideal S512x512 .i32) (x3 : Vec Ideal S512 .f32) (r a : Fin 512) :
    mulf (mulf (broadcast S512x512 (Scalar.ofBits .f32 0x3F000000#32)) (summed x0 x1 x2 x3)) (k0_pay9 x2) (ix2 r a)
      = elemK (k0_pay6 x0 (ix2 r a)) (k0_pay7 x1 (ix2 r a)) (x2 (ix2 r a)) (k0_pay10 x3 (ix2 r a)) := rfl

theorem pay6_eq {F : FTy → Type} [FloatOps F] (x0 : Vec F S512x512 .f32) : k0_pay6 x0 = x0 := shapeCast_self _ _
theorem pay7_eq {F : FTy → Type} [FloatOps F] (x1 : Vec F S512x512 .f32) : k0_pay7 x1 = x1 := shapeCast_self _ _

theorem pay10_apply {F : FTy → Type} [FloatOps F] (x3 : Vec F S512 .f32) (r a : Fin 512) : k0_pay10 x3 (ix2 r a) = x3 (ix1 a) := by
  unfold k0_pay10
  rw [broadcastTo_1b_ab_apply, shapeCast_self, shapeCast_a_1a_apply]

theorem rowSum_apply (v : FVec Ideal S512x512 .f32) (h : S512x512.Reduces [1] S512) (hφ : FKind.Formats .f32)
    (hacc : (0x00000000#32 : BitVec 32) = FKind.add.neutral .f32 hφ) (r : Fin 512) :
    multiReduction .add [1] S512 v 0x00000000#32 h hφ hacc (ix1 r) = ∑ a : Fin 512, v (ix2 r a) :=
  (Ideal.multiReduction_add_single v _ h hφ hacc (ix1 r)).trans
    (Finset.sum_congr rfl fun a _ => congrArg v (funext fun d => Fin.ext (by match d with | ⟨0, _⟩ => rfl | ⟨1, _⟩ => rfl)))

theorem colSum_apply (v : FVec Ideal S512x1 .f32) (h : S512x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ r : Fin 512, v (ix2 r (0 : Fin 1)) :=
  (Ideal.multiReduction_add_single v _ h hφ hacc (ix1 (0 : Fin 1))).trans
    (Finset.sum_congr rfl fun a _ => congrArg v (funext fun d => Fin.ext (by match d with | ⟨0, _⟩ => rfl | ⟨1, _⟩ => rfl)))

/-- 1 when a row's count of labelled entries is positive, as the body computes it. -/
def hvK (n : EReal) : EReal := ((((Ideal.cmp .ogt n zeroW).setWidth 32).toInt : ℝ) : EReal)

theorem mask_rfl (x2 : Vec Ideal S512x512 .i32) (r a : Fin 512) : k0_pay9 x2 (ix2 r a) = mK (x2 (ix2 r a)) := rfl

theorem pay1_apply (v17 : FVec Ideal S512x512 .f32) (r : Fin 512) :
    k0_pay1 v17 (ix2 r (0 : Fin 1)) = hvK (∑ a : Fin 512, v17 (ix2 r a)) := by
  unfold k0_pay1
  show hvK (shapeCast S512x1 _ _ (ix2 r (0 : Fin 1))) = _
  rw [Cert.Lib.Column.shapeCast_a_a1_apply]
  exact congrArg hvK (rowSum_apply _ _ _ _ r)

theorem pay3_apply (v17 : FVec Ideal S512x512 .f32) (acc : Vec Ideal S1x1 .f32) :
    k0_pay3 v17 acc (ix2 (0 : Fin 1) (0 : Fin 1)) = acc (ix2 (0 : Fin 1) (0 : Fin 1)) + ∑ r : Fin 512, k0_pay1 v17 (ix2 r (0 : Fin 1)) := by
  unfold k0_pay3
  rw [shapeCast_self]
  show acc _ + shapeCast S1x1 _ _ (ix2 (0 : Fin 1) (0 : Fin 1)) = _
  rw [Cert.Lib.Column.shapeCast_a_a1_apply]
  exact congrArg (acc (ix2 (0 : Fin 1) (0 : Fin 1)) + ·) (colSum_apply _ _ _ _)

theorem pay2_apply (v17 v93 : FVec Ideal S512x512 .f32) (acc : Vec Ideal S1x1 .f32) :
    k0_pay2 v17 v93 acc (ix2 (0 : Fin 1) (0 : Fin 1)) = acc (ix2 (0 : Fin 1) (0 : Fin 1))
      + ∑ r : Fin 512, (∑ a : Fin 512, mulf (mulf (broadcast S512x512 (Scalar.ofBits .f32 0x3F000000#32)) v93) v17 (ix2 r a))
          * k0_pay1 v17 (ix2 r (0 : Fin 1)) := by
  unfold k0_pay2
  rw [shapeCast_self]
  show acc _ + shapeCast S1x1 _ _ (ix2 (0 : Fin 1) (0 : Fin 1)) = _
  rw [Cert.Lib.Column.shapeCast_a_a1_apply]
  refine (congrArg (acc (ix2 (0 : Fin 1) (0 : Fin 1)) + ·) (colSum_apply _ _ _ _)).trans ?_
  refine congrArg _ (Finset.sum_congr rfl fun r _ => ?_)
  show shapeCast S512x1 _ _ (ix2 r (0 : Fin 1)) * k0_pay1 v17 (ix2 r (0 : Fin 1)) = _
  rw [Cert.Lib.Column.shapeCast_a_a1_apply]
  exact congrArg (· * k0_pay1 v17 (ix2 r (0 : Fin 1))) (rowSum_apply _ _ _ _ r)

/-! The body's entry-wise expressions are the specification's. -/

theorem zeroW_eq : zeroW = 0 := Ideal.ofBits_zero_f32
theorem oneW_eq : oneW = 1 := by unfold oneW; simp [Ideal.ofBits, Ideal.ieee, -EReal.coe_mul]; norm_num
theorem halfW_eq : halfW = ((1 / 2 : ℝ) : EReal) := by unfold halfW; simp [Ideal.ofBits, Ideal.ieee, -EReal.coe_mul]; norm_num

theorem spK_eq (z : EReal) : spK z = softplus z := by
  unfold spK softplus
  have hc : Ideal.cmp .one (z - zeroW) (z - zeroW) = 0#1 := by simp [Ideal.cmp]
  rw [hc, select_zero, zeroW_eq, sub_zero, sub_eq_add_neg 0, zero_add]

theorem bit_toInt : ∀ b : BitVec 1, (b.setWidth 32).toInt = (b.toNat : Int) := by decide

theorem mK_eq (l : BitVec 32) : mK l = valid l := by
  unfold mK valid
  rw [bit_toInt]; norm_cast

theorem hvK_eq (n : EReal) : hvK n = hasValid n := by
  unfold hvK hasValid
  rw [bit_toInt, zeroW_eq]; norm_cast

theorem elemK_eq (x0 x1 : EReal) (l : BitVec 32) (w : EReal) : elemK x0 x1 l w = annLoss x0 x1 l w := by
  unfold elemK annLoss
  rw [spK_eq, spK_eq, spK_eq, spK_eq, mK_eq, halfW_eq, oneW_eq, zeroW_eq, sub_eq_add_neg 0, zero_add, sub_eq_add_neg 0, zero_add]
  rfl

/-! The two updates of a grid step, read at their one entry. -/

/-- The count total after a step is what it held before plus the number of the block's samples with a labelled entry. -/
theorem blockCount_apply (x2 : Vec Ideal S512x512 .i32) (acc : Vec Ideal S1x1 .f32) :
    blockCount x2 acc (ix2 (0 : Fin 1) (0 : Fin 1)) = acc (ix2 (0 : Fin 1) (0 : Fin 1))
      + ∑ r : Fin 512, hasValid (∑ a : Fin 512, valid (x2 (ix2 r a))) := by
  unfold blockCount
  rw [pay3_apply]
  refine congrArg _ (Finset.sum_congr rfl fun r _ => ?_)
  rw [pay1_apply, hvK_eq]
  refine congrArg hasValid (Finset.sum_congr rfl fun a _ => ?_)
  rw [mask_rfl, mK_eq]

/-- The loss total after a step is what it held before plus the sum, over the block's counted samples, of the sample's
    loss. -/
theorem blockLoss_apply (x0 x1 : Vec Ideal S512x512 .f32) (x2 : Vec Ideal S512x512 .i32) (x3 : Vec Ideal S512 .f32)
    (acc : Vec Ideal S1x1 .f32) :
    blockLoss x0 x1 x2 x3 acc (ix2 (0 : Fin 1) (0 : Fin 1)) = acc (ix2 (0 : Fin 1) (0 : Fin 1))
      + ∑ r : Fin 512, (∑ a : Fin 512, annLoss (x0 (ix2 r a)) (x1 (ix2 r a)) (x2 (ix2 r a)) (x3 (ix1 a)))
          * hasValid (∑ a : Fin 512, valid (x2 (ix2 r a))) := by
  unfold blockLoss
  rw [pay2_apply]
  refine congrArg _ (Finset.sum_congr rfl fun r _ => ?_)
  rw [pay1_apply, hvK_eq]
  congr 1
  · refine Finset.sum_congr rfl fun a _ => ?_
    rw [elem_rfl, pay6_eq, pay7_eq, pay10_apply, elemK_eq]
  · refine congrArg hasValid (Finset.sum_congr rfl fun a _ => ?_)
    rw [mask_rfl, mK_eq]

/-- The zero the first step stores in each total. -/
theorem pay4_apply : (k0_pay4 (F := Ideal)) (ix2 (0 : Fin 1) (0 : Fin 1)) = 0 := by
  unfold k0_pay4
  rw [shapeCast_self]
  exact Ideal.ofBits_zero_f32

theorem pay5_apply : (k0_pay5 (F := Ideal)) (ix2 (0 : Fin 1) (0 : Fin 1)) = 0 := by
  unfold k0_pay5
  rw [shapeCast_self]
  exact Ideal.ofBits_zero_f32

end Cert.KernelIdeal.Block

end
-- ==== Proof.KernelInputs.lean ====
/-
  What the region's input blocks hold, in terms of the argument arrays.

  Before the region the host cuts the predictions [16384, 512, 2] into their two class planes [16384, 512]; the region
  then stages, at grid step `t`, rows 512 t … 512 t + 511 of each plane and of the labels, and the whole weight
  vector.  So entry `(r, a)` of the step's first block is the class-0 prediction of sample `512 t + r` and annotator
  `a`, of its second block the class-1 prediction, of its third the label; entry `a` of the fourth is weight `a`.
-/
import proofs.«137358_j14121852470100_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Inputs

open Cert.KernelIdeal Cert.KernelIdeal.Gen

variable {F : FTy → Type} [FloatOps F]
variable (m : (ℓ : Loc nD τ sig) → Buf (Elt F) ℓ)

/-- Class `k` of the predictions, cut out as a [16384, 512, 1] slab and re-laid as a [16384, 512] plane, reads at
    `(b, a)` the prediction at `(b, a, k)`. -/
theorem plane_apply {α : Type} (k : Fin 2) (X : S16384x512x2.Idx → α) (off : Fin 3 → Nat) (hoff : off = ![0, 0, k.val])
    (hs : S16384x512x2.Slices off S16384x512x1) (hc : S16384x512x1.ShapeCasts S16384x512) (b : Fin 16384) (a : Fin 512) :
    shapeCast S16384x512 (extractStridedSlice S16384x512x1 off X hs) hc (ix2 b a) = X (ix3 b a k) := by
  subst hoff
  refine (shapeCast_apply _ hc (ix2 b a) (ix3 b a (0 : Fin 1)) ?_).trans ?_
  · rw [Shape.rowMajor_val_three, Shape.rowMajor_val_two]
    show (b.val * 512 + a.val) * 1 + 0 = b.val * 512 + a.val
    omega
  · refine extractStridedSlice_apply _ X hs _ (ix3 b a k) fun d => ?_
    match d with
    | ⟨0, _⟩ => show b.val = 0 + b.val; omega
    | ⟨1, _⟩ => show a.val = 0 + a.val; omega
    | ⟨2, _⟩ => show k.val = k.val + 0; omega

/-- The first plane the region stages is class 0 of the predictions, -/
theorem V_v1_apply (c : Dev nD) (b : Fin 16384) (a : Fin 512) :
    V m c main_v1 (ix2 b a) = m ((c : Thread nD τ).loc main_arg0) (ix3 b a (0 : Fin 2)) := by
  have e : (V m c main_v1 : S16384x512.Idx → F .f32)
      = shapeCast S16384x512 (extractStridedSlice S16384x512x1 ![0, 0, 0] (m ((c : Thread nD τ).loc main_arg0)) slices_S16384x512x2_S16384x512x1_0_0_0) shapeCasts_S16384x512x1_S16384x512 := by
    show StableHlo.after hostOps0 (fun b => m (c, b)) (Proc.devRef .tc main_v1) = _
    after_results; rfl
  rw [e]
  exact plane_apply (0 : Fin 2) _ _ rfl _ _ b a

/-- and the second is class 1. -/
theorem V_v3_apply (c : Dev nD) (b : Fin 16384) (a : Fin 512) :
    V m c main_v3 (ix2 b a) = m ((c : Thread nD τ).loc main_arg0) (ix3 b a (1 : Fin 2)) := by
  have e : (V m c main_v3 : S16384x512.Idx → F .f32)
      = shapeCast S16384x512 (extractStridedSlice S16384x512x1 ![0, 0, 1] (m ((c : Thread nD τ).loc main_arg0)) slices_S16384x512x2_S16384x512x1_0_0_1) shapeCasts_S16384x512x1_S16384x512 := by
    show StableHlo.after hostOps0 (fun b => m (c, b)) (Proc.devRef .tc main_v3) = _
    after_results; rfl
  rw [e]
  exact plane_apply (1 : Fin 2) _ _ rfl _ _ b a

/-- Where each window's block sits at grid step `t`: the three sample-blocked windows at block row `t`, the weights
    at their one block. -/
theorem idx_facts : ∀ t : Fin cfg0.N, win0_0.index t 0 = t.val ∧ win0_0.index t 1 = 0 ∧ win0_1.index t 0 = t.val
      ∧ win0_1.index t 1 = 0 ∧ win0_2.index t 0 = t.val ∧ win0_2.index t 1 = 0 ∧ win0_3.index t 0 = 0 :=
  (by decide +kernel : ∀ t : Fin grid0.N, win0_0.index t 0 = t.val ∧ win0_0.index t 1 = 0 ∧ win0_1.index t 0 = t.val
      ∧ win0_1.index t 1 = 0 ∧ win0_2.index t 0 = t.val ∧ win0_2.index t 1 = 0 ∧ win0_3.index t 0 = 0)

/-- Sample `r` of block `t` is sample `512 t + r` of the batch. -/
def row (t : Fin cfg0.N) (r : Fin 512) : Fin 16384 :=
  ⟨512 * t.val + r.val, by have := t.isLt; have hN : cfg0.N = 32 := N_0; have := r.isLt; omega⟩

theorem iblk0_apply (c : Dev nD) (t : Fin cfg0.N) (r a : Fin 512) :
    (iblk m c 0 t : Vec F S512x512 .f32) (ix2 r a) = m ((c : Thread nD τ).loc main_arg0) (ix3 (row t r) a (0 : Fin 2)) := by
  unfold iblk
  rw [View.read_apply]
  show V m c main_v1 _ = _
  refine (congrArg (V m c main_v1) ?_).trans (V_v1_apply m c (row t r) a)
  funext d
  apply Fin.ext
  match d with
  | ⟨0, _⟩ => show win0_0.index t 0 * 512 + 1 * r.val = 512 * t.val + r.val; rw [(idx_facts t).1]; omega
  | ⟨1, _⟩ => show win0_0.index t 1 * 512 + 1 * a.val = a.val; rw [(idx_facts t).2.1]; omega

theorem iblk1_apply (c : Dev nD) (t : Fin cfg0.N) (r a : Fin 512) :
    (iblk m c 1 t : Vec F S512x512 .f32) (ix2 r a) = m ((c : Thread nD τ).loc main_arg0) (ix3 (row t r) a (1 : Fin 2)) := by
  unfold iblk
  rw [View.read_apply]
  show V m c main_v3 _ = _
  refine (congrArg (V m c main_v3) ?_).trans (V_v3_apply m c (row t r) a)
  funext d
  apply Fin.ext
  match d with
  | ⟨0, _⟩ => show win0_1.index t 0 * 512 + 1 * r.val = 512 * t.val + r.val; rw [(idx_facts t).2.2.1]; omega
  | ⟨1, _⟩ => show win0_1.index t 1 * 512 + 1 * a.val = a.val; rw [(idx_facts t).2.2.2.1]; omega

theorem iblk2_apply (c : Dev nD) (t : Fin cfg0.N) (r a : Fin 512) :
    (iblk m c 2 t : Vec F S512x512 .i32) (ix2 r a) = m ((c : Thread nD τ).loc main_arg1) (ix2 (row t r) a) := by
  unfold iblk
  rw [View.read_apply]
  show V m c main_arg1 _ = _
  rw [V_main_arg1]
  refine congrArg (m ((c : Thread nD τ).loc main_arg1)) ?_
  funext d
  apply Fin.ext
  match d with
  | ⟨0, _⟩ => show win0_2.index t 0 * 512 + 1 * r.val = 512 * t.val + r.val; rw [(idx_facts t).2.2.2.2.1]; omega
  | ⟨1, _⟩ => show win0_2.index t 1 * 512 + 1 * a.val = a.val; rw [(idx_facts t).2.2.2.2.2.1]; omega

theorem iblk3_apply (c : Dev nD) (t : Fin cfg0.N) (a : Fin 512) :
    (iblk m c 3 t : Vec F S512 .f32) (ix1 a) = m ((c : Thread nD τ).loc main_arg2) (ix1 a) := by
  unfold iblk
  rw [View.read_apply]
  show V m c main_arg2 _ = _
  rw [V_main_arg2]
  refine congrArg (m ((c : Thread nD τ).loc main_arg2)) ?_
  funext d
  apply Fin.ext
  match d with
  | ⟨0, _⟩ => show win0_3.index t 0 * 512 + 1 * a.val = a.val; rw [(idx_facts t).2.2.2.2.2.2]; omega

end Cert.KernelIdeal.Inputs

end
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.KernelTotals.lean ====
/-
  The two totals as sums over all samples.

  Step `t` of the grid adds to the loss total the sum, over samples 512 t … 512 t + 511 that count, of the sample's
  loss (`stepLoss`), and to the count total the number of those samples (`stepCount`).  After the last of the 32 steps
  the totals are therefore the sums over the 32 tiles of 512 samples, from the zero stored at the first step; a sum
  over tiles of sums over a tile's rows is the sum over all 16384 rows (sums on the extended reals are commutative and
  associative, no finiteness is needed): the specification's `sumLoss` and `numValid`.
-/
import proofs.«137358_j14121852470100_2_alg».proof.Proof.KernelChain
import proofs.«137358_j14121852470100_2_alg».proof.Proof.KernelBlock
import proofs.«137358_j14121852470100_2_alg».proof.Proof.KernelInputs
import proofs.«137358_j14121852470100_2_alg».proof.Proof.LibTileSum

noncomputable section

open Idealize.ShloMosaic Idealize.ShloMosaic.TcCoe Idealize.SL.Sem Idealize.ShloMosaic.ValueIdx

namespace Cert.KernelIdeal.Totals

open Cert.KernelIdeal Cert.KernelIdeal.Gen Cert.KernelIdeal.Pieces Cert.KernelIdeal.Chain Cert.KernelIdeal.Block
  Cert.KernelIdeal.Inputs Cert.LossSpec Cert.Lib.TileSum

variable (m : (ℓ : Loc nD τ sig) → Buf (Elt Ideal) ℓ)

/-- The three argument arrays on core `c`: predictions, labels, weights. -/
abbrev P (c : Dev nD) : (⟨3, ![16384, 512, 2]⟩ : Shape).Idx → EReal := m ((c : Thread nD τ).loc main_arg0)
abbrev L (c : Dev nD) : (⟨2, ![16384, 512]⟩ : Shape).Idx → BitVec 32 := m ((c : Thread nD τ).loc main_arg1)
abbrev W (c : Dev nD) : (⟨1, ![512]⟩ : Shape).Idx → EReal := m ((c : Thread nD τ).loc main_arg2)

/-- A sample's contribution to the loss total: its loss if it counts, else zero. -/
def counted (c : Dev nD) (j : Fin 16384) : EReal := rowLoss (P m c) (L m c) (W m c) j * hasValid (rowCount (L m c) j)

/-- What step `t` adds to the loss total, -/
def stepLoss (c : Dev nD) (t : Fin cfg0.N) : EReal := ∑ r : Fin 512, counted m c (row t r)

/-- and to the count total. -/
def stepCount (c : Dev nD) (t : Fin cfg0.N) : EReal := ∑ r : Fin 512, hasValid (rowCount (L m c) (row t r))

theorem blockLoss_step (c : Dev nD) (t : Fin cfg0.N) (acc : Vec Ideal S1x1 .f32) :
    blockLoss (iblk m c 0 t) (iblk m c 1 t) (iblk m c 2 t) (iblk m c 3 t) acc (ix2 (0 : Fin 1) (0 : Fin 1))
      = acc (ix2 (0 : Fin 1) (0 : Fin 1)) + stepLoss m c t := by
  refine (blockLoss_apply (iblk m c 0 t) (iblk m c 1 t) (iblk m c 2 t) (iblk m c 3 t) acc).trans ?_
  refine congrArg _ (Finset.sum_congr rfl fun r _ => ?_)
  unfold counted rowLoss rowCount
  simp only [iblk0_apply, iblk1_apply, iblk2_apply, iblk3_apply]

theorem blockCount_step (c : Dev nD) (t : Fin cfg0.N) (acc : Vec Ideal S1x1 .f32) :
    blockCount (iblk m c 2 t) acc (ix2 (0 : Fin 1) (0 : Fin 1)) = acc (ix2 (0 : Fin 1) (0 : Fin 1)) + stepCount m c t := by
  refine (blockCount_apply (iblk m c 2 t) acc).trans ?_
  refine congrArg _ (Finset.sum_congr rfl fun r _ => ?_)
  unfold rowCount
  simp only [iblk2_apply]

/-- The same, indexed by the step's number. -/
def stepLossN (c : Dev nD) (k : ℕ) : EReal := if h : k < cfg0.N then stepLoss m c ⟨k, h⟩ else 0
def stepCountN (c : Dev nD) (k : ℕ) : EReal := if h : k < cfg0.N then stepCount m c ⟨k, h⟩ else 0

theorem stepLossN_lt (c : Dev nD) (k : ℕ) (h : k < cfg0.N) : stepLossN m c k = stepLoss m c ⟨k, h⟩ := dif_pos h
theorem stepCountN_lt (c : Dev nD) (k : ℕ) (h : k < cfg0.N) : stepCountN m c k = stepCount m c ⟨k, h⟩ := dif_pos h

/-- After step `n` the loss total is the sum of the first `n + 1` steps' contributions. -/
theorem lossAfter_apply (c : Dev nD) : ∀ (n : ℕ) (h : n < cfg0.N),
    lossAfter m c n h (ix2 (0 : Fin 1) (0 : Fin 1)) = ∑ k ∈ Finset.range (n + 1), stepLossN m c k
  | 0, h => by
    show blockLoss (iblk m c 0 ⟨0, h⟩) (iblk m c 1 ⟨0, h⟩) (iblk m c 2 ⟨0, h⟩) (iblk m c 3 ⟨0, h⟩) (k0_pay4 (F := Ideal)) (ix2 (0 : Fin 1) (0 : Fin 1)) = _
    rw [blockLoss_step, pay4_apply, zero_add, Finset.sum_range_one, stepLossN_lt m c 0 h]
  | n + 1, h => by
    show blockLoss (iblk m c 0 ⟨n + 1, h⟩) (iblk m c 1 ⟨n + 1, h⟩) (iblk m c 2 ⟨n + 1, h⟩) (iblk m c 3 ⟨n + 1, h⟩)
      (lossAfter m c n (Nat.lt_of_succ_lt h)) (ix2 (0 : Fin 1) (0 : Fin 1)) = _
    rw [blockLoss_step, lossAfter_apply c n, Finset.sum_range_succ _ (n + 1), stepLossN_lt m c (n + 1) h]

/-- After step `n` the count total is the sum of the first `n + 1` steps' contributions. -/
theorem countAfter_apply (c : Dev nD) : ∀ (n : ℕ) (h : n < cfg0.N),
    countAfter m c n h (ix2 (0 : Fin 1) (0 : Fin 1)) = ∑ k ∈ Finset.range (n + 1), stepCountN m c k
  | 0, h => by
    show blockCount (iblk m c 2 ⟨0, h⟩) (k0_pay5 (F := Ideal)) (ix2 (0 : Fin 1) (0 : Fin 1)) = _
    rw [blockCount_step, pay5_apply, zero_add, Finset.sum_range_one, stepCountN_lt m c 0 h]
  | n + 1, h => by
    show blockCount (iblk m c 2 ⟨n + 1, h⟩) (countAfter m c n (Nat.lt_of_succ_lt h)) (ix2 (0 : Fin 1) (0 : Fin 1)) = _
    rw [blockCount_step, countAfter_apply c n, Finset.sum_range_succ _ (n + 1), stepCountN_lt m c (n + 1) h]

theorem tiles : 32 * 512 = 16384 := by norm_num

/-- A step's rows are a tile of the batch's rows. -/
theorem row_eq_tile (k : Fin 32) (h : k.val < cfg0.N) (r : Fin 512) : row ⟨k.val, h⟩ r = tileRow tiles k r := Fin.ext rfl

/-- The loss total after the last step is the specification's sum over all samples, -/
theorem lossTotal_apply (c : Dev nD) : lossTotal m c (ix2 (0 : Fin 1) (0 : Fin 1)) = sumLoss (P m c) (L m c) (W m c) := by
  have hN : cfg0.N = 32 := N_0
  show lossAfter m c 31 lt31 (ix2 (0 : Fin 1) (0 : Fin 1)) = _
  rw [lossAfter_apply, Finset.sum_range]
  refine Eq.trans (Finset.sum_congr rfl fun k _ => ?_) (sum_tiles tiles (counted m c))
  have hk : k.val < cfg0.N := by have := k.isLt; omega
  rw [stepLossN_lt m c k.val hk]
  exact Finset.sum_congr rfl fun r _ => congrArg (counted m c) (row_eq_tile k hk r)

/-- and the count total is the specification's number of samples that count. -/
theorem countTotal_apply (c : Dev nD) : countTotal m c (ix2 (0 : Fin 1) (0 : Fin 1)) = numValid (L m c) := by
  have hN : cfg0.N = 32 := N_0
  show countAfter m c 31 lt31 (ix2 (0 : Fin 1) (0 : Fin 1)) = _
  rw [countAfter_apply, Finset.sum_range]
  refine Eq.trans (Finset.sum_congr rfl fun k _ => ?_) (sum_tiles tiles fun j => hasValid (rowCount (L m c) j))
  have hk : k.val < cfg0.N := by have := k.isLt; omega
  rw [stepCountN_lt m c k.val hk]
  exact Finset.sum_congr rfl fun r _ => congrArg (fun j => hasValid (rowCount (L m c) j)) (row_eq_tile k hk r)

end Cert.KernelIdeal.Totals

end
-- ==== Proof.KernelRun.lean ====
/-
  The kernel program's run, read: its result is the loss total over the count total.

  After the region the host re-lays each of the two one-entry result arrays as a scalar, takes the larger of the count
  and one, and divides the loss total by it.  The region's two result arrays end as the totals after the last grid
  step, those are the specification's sums over all samples, and so the program's result is the specification's batch
  loss of the three argument arrays, which end unchanged.
-/
import proofs.«137358_j14121852470100_2_alg».proof.Proof.KernelTotals
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Chain Cert.KernelIdeal.Totals Cert.LossSpec

section AnyInstance

variable {F : FTy → Type} [FloatOps F]
variable (m : (ℓ : Loc nD τ sig) → Buf (Elt F) ℓ) (ρ : Dev nD → PrngReg)

/-- The batch loss from the two totals: the loss total over the count total, the latter at least one. -/
def quotient (s n : Vec F S1x1 .f32) : FVec F S_ .f32 :=
  Host.divf (shapeCast S_ s shapeCasts_S1x1_S_) (maximumf (shapeCast S_ n shapeCasts_S1x1_S_) (constant S_ .f32 0x3F800000#32))

/-- What the host's lines after the region leave in the program's result: the quotient of the two totals. -/
theorem tail_eq (c : Dev nD) :
    Pipeline.afterTail₀ cfgs (dats m) 0 (V0 m) [hostOps1] c main_v8 = quotient (lossTotal m c) (countTotal m c) := by
  unfold Pipeline.afterTail₀
  show StableHlo.after hostOps1 _ (Proc.devRef .tc main_v8) = _
  after_results
  have e4 : Pipeline.withArrays (cfgs 0).spec c (V0 m c) (fun w => (dats m 0 c).arrAt w (cfgs 0).N) (Proc.devRef .tc main_v4_0)
      = lossTotal m c := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v4_1)
      = countTotal m c := (Pipeline.withArrays_arr spec0 launch0.win.arr_inj c _ _ 5).trans (final5 m c)
  rw [e4, e5]
  rfl

/-- A one-entry array re-laid as a scalar reads its one entry. -/
theorem scalar_of_1x1 {α : Type} (x : S1x1.Idx → α) (h : S1x1.ShapeCasts S_) (i : S_.Idx) :
    shapeCast S_ x h i = x (ix2 (0 : Fin 1) (0 : Fin 1)) :=
  shapeCast_apply x h i _ (by
    rw [Shape.rowMajor_val_two]
    show 0 * 1 + 0 = (Shape.rowMajorPi _ i).val
    rw [Shape.rowMajorPi_zero])

end AnyInstance

variable (m : (ℓ : Loc nD τ sig) → Buf (Elt Ideal) ℓ) (ρ : Dev nD → PrngReg)

theorem one_f32 : Ideal.ofBits .f32 0x3F800000#32 = 1 := Block.oneW_eq

/-- At the extended reals the quotient of the two totals is the specification's batch loss. -/
theorem quotient_eq (c : Dev nD) (i : S_.Idx) :
    quotient (lossTotal m c) (countTotal m c) i = loss (P m c) (L m c) (W m c) := by
  show Ideal.div (shapeCast S_ (lossTotal m c) _ i) (max (shapeCast S_ (countTotal m c) _ i) (Ideal.ofBits .f32 0x3F800000#32)) = _
  rw [scalar_of_1x1, scalar_of_1x1, lossTotal_apply, countTotal_apply, one_f32]
  rfl

/-- The run: the result at the batch loss, the arguments unchanged. -/
theorem run : θ_run defs (onTc (τ := τ) (main (F := Ideal))) ⟨m, fun _ => 0, ρ⟩ (fun r => ∀ c : Dev nD,
      r.2.mem ((c.tc : Thread nD τ).loc main_v8) = (fun _ => loss (P m c) (L m c) (W m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(((h c).2 main_v8 (Pipeline.mem_restRefs_of main_v8 (by decide) (by decide))).trans (tail_eq m c)).trans
          (funext fun i => quotient_eq m c i),
        ((h c).2 main_arg0 (Pipeline.mem_restRefs_of main_arg0 (by decide) (by decide))).trans (W_main_arg0 m (dats m) c),
        ((h c).1 2).trans (((dats m 0 c).arrAt_in 2 rfl _).trans ((A_eq m c 2).trans (V_main_arg1 m c))),
        ((h c).1 3).trans (((dats m 0 c).arrAt_in 3 rfl _).trans ((A_eq m c 3).trans (V_main_arg2 m c)))⟩)
    (run_main m ρ)

end Cert.KernelIdeal.Run

end
-- ==== Proof.RefElem.lean ====
/-
  The reference's arithmetic for one sample and one annotator, on the extended reals, and its agreement with the
  specification's `annLoss`.

  The reference builds the one-hot target `[1 - t, t]` of the clamped label `t`, and for each class `c` with target
  `τ` and logit `x` the weighted logistic loss `(w · τ) · sp (-x) + (1 - τ) · sp x`; it adds the two classes onto a zero,
  divides by two and multiplies by the indicator that the annotator labelled the sample. Its softplus `sp` first tests
  `z ≠ z` (never true of an extended real) and otherwise takes `max z 0 + log (1 + exp (-|z - 0|))`.

  Against the specification three things differ, and each is an identity of the extended reals that asks no
  finiteness of the logits or the weights: `z - 0 = z`; `1 - (1 - t) = t` because `t` is a real number (an integer read
  as a number); and a quotient by the real number two is the product with one half. The last lemma turns a selection
  between a value and zero on a one-bit condition into the product with the condition read as a number: `x · 1 = x`
  and `x · 0 = 0` hold for every extended real.
-/
import proofs.«137358_j14121852470100_2_alg».proof.Proof.LossSpec
import Idealize.ShloMosaic.PureOps.Ideal
import Idealize.ShloMosaic.PureOps.Ideal.Laws
import Idealize.ShloMosaic.Lib.ValueIdx

noncomputable section

namespace Cert.RefElem

open Idealize.ShloMosaic Idealize.ShloMosaic.ValueIdx Cert.LossSpec

/-! ## The three float literals -/

/-- The word `0x3F800000` denotes the number one. -/
theorem one_f32 : Ideal.ofBits .f32 0x3F800000#32 = 1 := by
  simp [Ideal.ofBits, Ideal.ieee, -EReal.coe_mul]; norm_num

/-- The word `0x40000000` denotes the real number two. -/
theorem two_f32 : Ideal.ofBits .f32 0x40000000#32 = ((2 : ℝ) : EReal) := by
  simp [Ideal.ofBits, Ideal.ieee, -EReal.coe_mul]; norm_num

/-! ## The softplus -/

/-- The softplus as the reference computes it: `z + 0` where `z - 0 ≠ z - 0`, else
    `max z 0 + log (1 + exp (-|z - 0|))`, the zero being the word `0x00000000`. -/
def refSp (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- No extended real differs from itself. -/
theorem cmp_une_self (z : EReal) : Ideal.cmp .une z z = 0#1 := by
  simp [Ideal.cmp]

/-- The reference's softplus is the specification's: the test fails, and `z - 0 = z`. -/
theorem refSp_eq (z : EReal) : refSp z = softplus z := by
  unfold refSp softplus
  rw [Ideal.ofBits_zero_f32, cmp_une_self, select_zero, sub_zero]

/-! ## One annotator's loss -/

/-- One class's weighted logistic loss as the reference computes it, from the weight `w`, the class's target `τ` and
    its logit `x`: `(w · τ) · sp (-x) + (1 - τ) · sp x`, the one being the word `0x3F800000`. -/
def refElem (w τ x : EReal) : EReal :=
  (w * τ) * refSp (-x) + (Ideal.ofBits .f32 0x3F800000#32 - τ) * refSp x

/-- One annotator's loss of one sample as the reference computes it: the two classes' losses, at the targets `1 - t`
    and `t`, added onto the zero word, divided by the word two and multiplied by the labelled indicator. -/
def refAnn (x0 x1 : EReal) (l : BitVec 32) (w : EReal) : EReal :=
  Ideal.div
      (Ideal.ofBits .f32 0x00000000#32
        + (refElem w (Ideal.ofBits .f32 0x3F800000#32 - target l) x0 + refElem w (target l) x1))
      (Ideal.ofBits .f32 0x40000000#32)
    * valid l

/-- For a real number `r`, `1 - (1 - r) = r` on the extended reals. -/
theorem one_sub_one_sub_coe (r : ℝ) : (1 : EReal) - (1 - (r : EReal)) = r := by
  rw [← EReal.coe_one, ← EReal.coe_sub, ← EReal.coe_sub, sub_sub_cancel]

/-- The reference's per-annotator loss is the specification's. -/
theorem refAnn_eq (x0 x1 : EReal) (l : BitVec 32) (w : EReal) : refAnn x0 x1 l w = annLoss x0 x1 l w := by
  unfold refAnn refElem annLoss
  rw [refSp_eq, refSp_eq, refSp_eq, refSp_eq, Ideal.ofBits_zero_f32, one_f32, two_f32,
    Ideal.div_coe (by norm_num : (2 : ℝ) ≠ 0), zero_add]
  have ht : (1 : EReal) - (1 - target l) = target l := one_sub_one_sub_coe _
  rw [ht, mul_comm (_ + _) (((1 / 2 : ℝ) : ℝ) : EReal)]

/-! ## A selection against zero as a product -/

/-- A one-bit condition read as a number is one or zero, so selecting `x` on the condition and the zero word
    otherwise is the product of `x` with that number. -/
theorem select_zero_eq_mul (c : BitVec 1) (x : EReal) :
    Scalar.select c x (Ideal.ofBits .f32 0x00000000#32) = x * (((c.toNat : ℝ)) : EReal) := by
  rw [Ideal.ofBits_zero_f32]
  rcases BitVec.eq_zero_or_eq_one c with h | h
  · subst h
    rw [select_zero]
    simp
  · subst h
    rw [select_one]
    simp

end Cert.RefElem

end
-- ==== Proof.RefLoss.lean ====
/-
  The reference program's result is the specification's loss.

  The reference's stages are read at an index, from the last operation inwards, and each is identified with the
  specification's function of the same name:

  * at sample `b` and annotator `a` the clamped label read as a number is `target`, the one-hot target is
    `1 - target` at class 0 and `target` at class 1 (the concatenation along the class axis takes its first piece at
    class 0 and its second at class 1), the weight is the annotator's, and the two softplus calls are the reference's
    softplus of `-x` and of `x`; so the masked mean over the two classes is the reference's per-annotator expression,
    which is `annLoss`;
  * the sums over the annotators are `rowLoss` and `rowCount`, each added onto a zero;
  * "the count is positive", read as a number, is `hasValid`, and selecting the row's loss on it against zero is the
    product of the two;
  * the two sums over the samples are `sumLoss` and `numValid`, and the quotient is `loss`.

  No step uses that an input is finite.
-/
import proofs.«137358_j14121852470100_2_alg».proof.Proof.ReadP
import proofs.«137358_j14121852470100_2_alg».proof.Proof.LossSpec
import proofs.«137358_j14121852470100_2_alg».proof.Proof.RefElem
import proofs.«137358_j14121852470100_2_alg».proof.Proof.LibTileSum

noncomputable section

open scoped BigOperators

namespace Cert.RefLoss

open Cert.ReferenceIdeal Cert.ReferenceIdeal.Gen Cert.ReferenceIdeal.ReadP Idealize.ShloMosaic
  Idealize.ShloMosaic.ValueIdx Idealize.ShloMosaic.StableHlo Cert.LossSpec Cert.RefElem

variable (x0 : (⟨S16384x512x2, .f32⟩ : BufTy).Contents (Elt Ideal))
  (x1 : (⟨S16384x512, .i32⟩ : BufTy).Contents (Elt Ideal)) (x2 : (⟨S512, .f32⟩ : BufTy).Contents (Elt Ideal))

/-! ## The index maps of the layout operations and of the sums, at coordinates -/

/-- Dropping the unit class axis of `(b, a, 0)` gives `(b, a)`. -/
theorem idx_v4_eq (b : Fin 16384) (a : Fin 512) : idx_main_v4 (ix3 b a (0 : Fin 1)) = ix2 b a :=
  funext fun d => Fin.ext (by match d with | ⟨0, _⟩ => rfl | ⟨1, _⟩ => rfl)

theorem idx_v5_eq (b : Fin 16384) (a : Fin 512) : idx_main_v5 (ix3 b a (0 : Fin 1)) = ix2 b a :=
  funext fun d => Fin.ext (by match d with | ⟨0, _⟩ => rfl | ⟨1, _⟩ => rfl)

/-- The weight read at `(b, a, c)` is annotator `a`'s. -/
theorem idx_v7_v8_eq (b : Fin 16384) (a : Fin 512) (c : Fin 2) : idx_main_v7 (idx_main_v8 (ix3 b a c)) = ix1 a :=
  funext fun d => Fin.ext (by match d with | ⟨0, _⟩ => rfl)

/-- The sum over the classes at `(b, a)` runs over `(b, a, c)`. -/
theorem idx_v18_eq (b : Fin 16384) (a : Fin 512) (c : Fin 2) : idx_main_v18 (ix2 b a) c = ix3 b a c :=
  funext fun d => Fin.ext (by match d with | ⟨0, _⟩ => rfl | ⟨1, _⟩ => rfl | ⟨2, _⟩ => rfl)

/-- The sums over the annotators at `b` run over `(b, a)`. -/
theorem idx_v25_eq (b : Fin 16384) (a : Fin 512) : idx_main_v25 (ix1 b) a = ix2 b a :=
  funext fun d => Fin.ext (by match d with | ⟨0, _⟩ => rfl | ⟨1, _⟩ => rfl)

theorem idx_v26_eq (b : Fin 16384) (a : Fin 512) : idx_main_v26 (ix1 b) a = ix2 b a :=
  funext fun d => Fin.ext (by match d with | ⟨0, _⟩ => rfl | ⟨1, _⟩ => rfl)

/-! ## One sample and one annotator -/

/-- The clamped label, converted, is `target`. -/
theorem v1_at (b : Fin 16384) (a : Fin 512) : val_main_v1 (F := Ideal) x1 (ix2 b a) = target (x1 (ix2 b a)) := by
  rw [val_main_v1_apply, val_main_v0_apply, val_main_call0_v4_apply, val_main_call0_v3_apply, val_main_c_0_apply,
    val_main_call0_v2_apply, val_main_call0_v1_apply, val_main_call0_v0_apply, val_main_c_apply]
  rfl

/-- One minus it. -/
theorem v3_at (b : Fin 16384) (a : Fin 512) :
    val_main_v3 (F := Ideal) x1 (ix2 b a) = Ideal.ofBits .f32 0x3F800000#32 - target (x1 (ix2 b a)) := by
  rw [val_main_v3_apply, val_main_v2_apply, val_main_cst_apply, v1_at]
  rfl

/-- The one-hot target at class 0 is `1 - target`: the concatenation's first piece. -/
theorem v6_at0 (b : Fin 16384) (a : Fin 512) :
    val_main_v6 (F := Ideal) x1 (ix3 b a (0 : Fin 2)) = Ideal.ofBits .f32 0x3F800000#32 - target (x1 (ix2 b a)) := by
  unfold val_main_v6
  refine (concatenate_pair_apply_left (t := S16384x512x2) (s₁ := S16384x512x1) (s₂ := S16384x512x1) 2
    (val_main_v4 (F := Ideal) x1) (val_main_v5 (F := Ideal) x1) concatenates_S16384x512x1_S16384x512x1_S16384x512x2_d2
    (ix3 b a (0 : Fin 2)) rfl (ix3 b a (0 : Fin 1)) (fun d => ?_)).trans ?_
  · match d with
    | ⟨0, _⟩ => rfl
    | ⟨1, _⟩ => rfl
    | ⟨2, _⟩ => rfl
  · rw [val_main_v4_apply, idx_v4_eq, v3_at]

/-- The one-hot target at class 1 is `target`: the concatenation's second piece. -/
theorem v6_at1 (b : Fin 16384) (a : Fin 512) :
    val_main_v6 (F := Ideal) x1 (ix3 b a (1 : Fin 2)) = target (x1 (ix2 b a)) := by
  unfold val_main_v6
  refine (concatenate_pair_apply_right (t := S16384x512x2) (s₁ := S16384x512x1) (s₂ := S16384x512x1) 2
    (val_main_v4 (F := Ideal) x1) (val_main_v5 (F := Ideal) x1) concatenates_S16384x512x1_S16384x512x1_S16384x512x2_d2
    (ix3 b a (1 : Fin 2)) rfl rfl (ix3 b a (0 : Fin 1)) (fun d hd => ?_) rfl).trans ?_
  · match d with
    | ⟨0, _⟩ => rfl
    | ⟨1, _⟩ => rfl
    | ⟨2, _⟩ => exact absurd rfl hd
  · rw [val_main_v5_apply, idx_v5_eq, v1_at]

/-- The broadcast weight at `(b, a, c)` is annotator `a`'s weight. -/
theorem v8_at (b : Fin 16384) (a : Fin 512) (c : Fin 2) : val_main_v8 (F := Ideal) x2 (ix3 b a c) = x2 (ix1 a) := by
  rw [val_main_v8_apply, val_main_v7_apply, idx_v7_v8_eq]

/-- The first softplus call, of the negated logits, at an index. -/
theorem v11_at (i : S16384x512x2.Idx) : val_main_v11 (F := Ideal) x0 i = refSp (-(x0 i)) := by
  rw [val_main_v11_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, val_main_v10_apply]
  rfl

/-- The second softplus call, of the logits, at an index. -/
theorem v15_at (i : S16384x512x2.Idx) : val_main_v15 (F := Ideal) x0 i = refSp (x0 i) := by
  rw [val_main_v15_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply]
  rfl

/-- One class's weighted logistic loss at `(b, a, c)`, from the one-hot target there. -/
theorem v17_at (b : Fin 16384) (a : Fin 512) (c : Fin 2) :
    val_main_v17 (F := Ideal) x0 x1 x2 (ix3 b a c)
      = refElem (x2 (ix1 a)) (val_main_v6 (F := Ideal) x1 (ix3 b a c)) (x0 (ix3 b a c)) := by
  rw [val_main_v17_apply, val_main_v12_apply, val_main_v9_apply, val_main_v16_apply, val_main_v14_apply,
    val_main_v13_apply, val_main_cst_1_apply, v8_at, v11_at, v15_at]
  rfl

/-- The labelled indicator at `(b, a)` is `valid`. -/
theorem v23_at (b : Fin 16384) (a : Fin 512) : val_main_v23 (F := Ideal) x1 (ix2 b a) = valid (x1 (ix2 b a)) := by
  rw [val_main_v23_apply, val_main_v22_apply, val_main_v21_apply, val_main_c_4_apply]
  rfl

/-- The masked mean over the two classes at `(b, a)` is `annLoss`. -/
theorem v24_at (b : Fin 16384) (a : Fin 512) :
    val_main_v24 (F := Ideal) x0 x1 x2 (ix2 b a)
      = annLoss (x0 (ix3 b a 0)) (x0 (ix3 b a 1)) (x1 (ix2 b a)) (x2 (ix1 a)) := by
  rw [val_main_v24_apply, val_main_v20_apply, val_main_v18_apply, Fin.sum_univ_two, idx_v18_eq, idx_v18_eq,
    v17_at, v17_at, v6_at0, v6_at1, val_main_cst_2_apply, val_main_v19_apply, val_main_cst_3_apply, v23_at]
  exact refAnn_eq _ _ _ _

/-! ## One sample -/

/-- The sum of a sample's annotators' losses is `rowLoss`. -/
theorem v25_at (b : Fin 16384) : val_main_v25 (F := Ideal) x0 x1 x2 (ix1 b) = rowLoss x0 x1 x2 b := by
  rw [val_main_v25_apply, val_main_cst_5_apply, Ideal.ofBits_def, Ideal.ofBits_zero_f32, zero_add]
  exact Finset.sum_congr rfl fun a _ => by rw [idx_v25_eq, v24_at]

/-- The number of a sample's labelling annotators is `rowCount`. -/
theorem v26_at (b : Fin 16384) : val_main_v26 (F := Ideal) x1 (ix1 b) = rowCount x1 b := by
  rw [val_main_v26_apply, val_main_cst_6_apply, Ideal.ofBits_def, Ideal.ofBits_zero_f32, zero_add]
  exact Finset.sum_congr rfl fun a _ => by rw [idx_v26_eq, v23_at]

/-- "The count is positive" as a bit. -/
theorem v28_at (b : Fin 16384) : val_main_v28 (F := Ideal) x1 (ix1 b) = Ideal.cmp .ogt (rowCount x1 b) 0 := by
  rw [val_main_v28_apply, v26_at, val_main_v27_apply, val_main_cst_7_apply, Ideal.ofBits_def, Ideal.ofBits_zero_f32]
  rfl

/-- That bit as a number is `hasValid`. -/
theorem v29_at (b : Fin 16384) : val_main_v29 (F := Ideal) x1 (ix1 b) = hasValid (rowCount x1 b) := by
  rw [val_main_v29_apply, v28_at]
  rfl

/-- The sample's loss where it counts and zero elsewhere is the product of the loss with `hasValid`. -/
theorem v32_at (b : Fin 16384) :
    val_main_v32 (F := Ideal) x0 x1 x2 (ix1 b) = rowLoss x0 x1 x2 b * hasValid (rowCount x1 b) := by
  rw [val_main_v32_apply, v28_at, v25_at, val_main_call3_v1_apply, val_main_call3_v0_apply, val_main_cst_10_apply,
    Ideal.ofBits_def, select_zero_eq_mul]
  rfl

/-! ## The batch -/

/-- The number of samples that count. -/
theorem v30_at (i : S_.Idx) : val_main_v30 (F := Ideal) x1 i = numValid x1 := by
  rw [val_main_v30_apply, val_main_cst_8_apply, Ideal.ofBits_def, Ideal.ofBits_zero_f32, zero_add,
    Cert.Lib.TileSum.sum_idx1]
  exact Finset.sum_congr rfl fun b _ => v29_at x1 b

/-- The sum of the counted samples' losses. -/
theorem v33_at (i : S_.Idx) : val_main_v33 (F := Ideal) x0 x1 x2 i = sumLoss x0 x1 x2 := by
  rw [val_main_v33_apply, val_main_cst_11_apply, Ideal.ofBits_def, Ideal.ofBits_zero_f32, zero_add,
    Cert.Lib.TileSum.sum_idx1]
  exact Finset.sum_congr rfl fun b _ => v32_at x0 x1 x2 b

/-- The divisor: the number of samples that count, at least one. -/
theorem v31_at (i : S_.Idx) : val_main_v31 (F := Ideal) x1 i = max (numValid x1) 1 := by
  rw [val_main_v31_apply, v30_at, val_main_cst_9_apply, Ideal.ofBits_def, one_f32]
  rfl

/-- The reference's result is the specification's loss. -/
theorem ref_eq (x0 : (⟨Cert.ReferenceIdeal.S16384x512x2, .f32⟩ : BufTy).Contents (Elt Ideal))
    (x1 : (⟨Cert.ReferenceIdeal.S16384x512, .i32⟩ : BufTy).Contents (Elt Ideal))
    (x2 : (⟨Cert.ReferenceIdeal.S512, .f32⟩ : BufTy).Contents (Elt Ideal)) (i : Cert.ReferenceIdeal.S_.Idx) :
    Cert.ReferenceIdeal.ReadP.val_main_v34 (F := Ideal) x0 x1 x2 i = Cert.LossSpec.loss x0 x1 x2 := by
  rw [val_main_v34_apply, v33_at, v31_at]
  rfl

end Cert.RefLoss

end
-- ==== Proof.lean ====
/-
  The kernel — a masked, weighted two-class logistic loss of a batch of 16384 samples × 512 annotators, accumulated
  block by block over a grid of 32 steps into two one-entry totals and normalised by the host — against its jnp
  reference, on the extended reals.

  Both programs compute one function of the three argument arrays, the specification's `Cert.LossSpec.loss`: the sum,
  over the samples at least one annotator labelled, of the sample's masked per-annotator losses, over the number of
  such samples (at least one).  The kernel's side: each grid step adds its block's two totals to two scratch entries
  (zeroed at the first step, copied to the two outputs at the last), so after the last step the outputs hold the sums
  over all 32 tiles of 512 samples, which are the sums over all samples; the host then divides.  The reference's side:
  the same entry-wise expression up to identities of the extended reals that hold at the infinities too, summed in one
  piece.  Neither side needs the inputs to be finite: only commutativity and associativity of finite sums, `x · 1 = x`,
  `x · 0 = 0`, and that the clamped label is a real number.

  The three frames are the programs' runs with the results forgotten; the idealization rewrote nothing, so there is
  nothing to preserve.
-/
import proofs.«137358_j14121852470100_2_alg».proof.Defs
import proofs.«137358_j14121852470100_2_alg».proof.Proof.Gen.Kernel
import proofs.«137358_j14121852470100_2_alg».proof.Proof.Gen.Kernel.Skeleton
import proofs.«137358_j14121852470100_2_alg».proof.Proof.Gen.Kernel.Launch
import proofs.«137358_j14121852470100_2_alg».proof.Proof.Gen.Kernel.Points
import proofs.«137358_j14121852470100_2_alg».proof.Proof.Gen.Kernel.Frame
import proofs.«137358_j14121852470100_2_alg».proof.Proof.Gen.KernelIdeal
import proofs.«137358_j14121852470100_2_alg».proof.Proof.Gen.KernelIdeal.Skeleton
import proofs.«137358_j14121852470100_2_alg».proof.Proof.Gen.KernelIdeal.Launch
import proofs.«137358_j14121852470100_2_alg».proof.Proof.Gen.KernelIdeal.Points
import proofs.«137358_j14121852470100_2_alg».proof.Proof.Gen.KernelIdeal.Frame
import proofs.«137358_j14121852470100_2_alg».proof.Proof.Gen.ReferenceIdeal
import proofs.«137358_j14121852470100_2_alg».proof.Proof.Gen.Pre_finite_inputs
import proofs.«137358_j14121852470100_2_alg».proof.Proof.KernelRun
import proofs.«137358_j14121852470100_2_alg».proof.Proof.RefLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From arguments that agree, the kernel's result is the batch loss of its arguments and the reference's result is
    the batch loss of its own: one extended real. -/
theorem algebraic : Cert.algebraic_KernelIdeal_ReferenceIdeal := by
  intro m ρ m' ρ' _ hagree
  refine ⟨fun c => fun _ => Cert.LossSpec.loss (Cert.KernelIdeal.Totals.P m c) (Cert.KernelIdeal.Totals.L m c) (Cert.KernelIdeal.Totals.W m c),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v34_eq]
  funext i
  rw [Cert.RefLoss.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
